-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x64x32 : Shape := ⟨4, ![128, 64, 64, 32]⟩
abbrev S_ : Shape := ⟨0, ![]⟩

class Facts : Prop where
  bcast_S_S128x64x64x32 : S_.BroadcastsInDim S128x64x64x32 (![] : Fin 0 → Fin S128x64x64x32.rank)
  reducesTo_S128x64x64x32_S_d0_1_2_3 : S128x64x64x32.ReducesTo [0, 1, 2, 3] S_
  h_S_ : 0 < S_.numel

variable [Facts]

def fn {F : FTy → Type} [FloatOps F] (main_arg0 : FVec F S128x64x64x32 .f32) : IVec S_ 1 :=
  let main_v0 : FVec F S128x64x64x32 .f32 := Host.absf main_arg0
  let main_cst : FVec F S_ .f32 := constant S_ .f32 0x7F800000#32
  let main_v1 : FVec F S128x64x64x32 .f32 := broadcastInDim S128x64x64x32 ![] bcast_S_S128x64x64x32 main_cst
  let main_v2 : IVec S128x64x64x32 1 := cmpf .olt main_v0 main_v1
  let main_c : IVec S_ 1 := constantI S_ 1 1#1
  let main_v3 : IVec S_ 1 := (fun x v => Host.reduce IntOp.andi x v reducesTo_S128x64x64x32_S_d0_1_2_3 h_S_) main_v2 main_c
  main_v3
-- ==== Kernel.lean ====
abbrev S128x64x64x32 : Shape := ⟨4, ![128, 64, 64, 32]⟩
abbrev S128x64x2048 : Shape := ⟨3, ![128, 64, 2048]⟩
abbrev S1x1 : Shape := ⟨2, ![1, 1]⟩
abbrev S16x64x2048 : Shape := ⟨3, ![16, 64, 2048]⟩
abbrev S16x64 : Shape := ⟨2, ![16, 64]⟩
abbrev S16x64x1 : Shape := ⟨3, ![16, 64, 1]⟩
abbrev S16 : Shape := ⟨1, ![16]⟩
abbrev S16x1 : Shape := ⟨2, ![16, 1]⟩
abbrev S1 : Shape := ⟨1, ![1]⟩
abbrev S16x2048 : Shape := ⟨2, ![16, 2048]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S128x64x64x32, .f32⟩
  | .hbm, ⟨1, _⟩ => ⟨S128x64x2048, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S16x64x2048, .f32⟩
  | .local _ .vmem, ⟨1, _⟩ => ⟨S16x64x2048, .f32⟩
  | .local _ .vmem, ⟨2, _⟩ => ⟨S1x1, .f32⟩
  | .local _ .vmem, ⟨3, _⟩ => ⟨S1x1, .f32⟩
  | _, _ => ⟨S128x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S128x64x64x32_S128x64x2048 : S128x64x64x32.ShapeCasts S128x64x2048
  inb_S1x1_S1x1_0_0 : ∀ a, (![0, 0] : Fin 2 → Nat) a + S1x1.size a ≤ S1x1.size a
  h_S1x1 : 0 < S1x1.numel
  inb_S16x64x2048_S16x64x2048_0_0_0 : ∀ a, (![0, 0, 0] : Fin 3 → Nat) a + S16x64x2048.size a ≤ S16x64x2048.size a
  h_S16x64x2048 : 0 < S16x64x2048.numel
  shapeCasts_S16x64x2048_S16x64x2048 : S16x64x2048.ShapeCasts S16x64x2048
  reduces_S16x64x2048_S16x64 : S16x64x2048.Reduces [2] S16x64
  shapeCasts_S16x64_S16x64x1 : S16x64.ShapeCasts S16x64x1
  broadcasts_S16x64x1_S16x64x2048 : S16x64x1.Broadcasts S16x64x2048
  reduces_S16x64_S16 : S16x64.Reduces [1] S16
  shapeCasts_S16_S16x1 : S16.ShapeCasts S16x1
  reduces_S16x1_S1 : S16x1.Reduces [0] S1
  shapeCasts_S1_S1x1 : S1.ShapeCasts S1x1
  reduces_S16x64x2048_S16x2048 : S16x64x2048.Reduces [1] S16x2048
  reduces_S16x2048_S16 : S16x2048.Reduces [1] S16
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x2048.size a ≤ S128x64x2048.size a
  hwx0_0 : ∀ i : grid0.Coords, EltTy.bits .f32 = 32 ∨ (Rect.block (s := S128x64x2048) S16x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x64x64x32 : Shape := ⟨4, ![128, 64, 64, 32]⟩
abbrev S128x64x2048 : Shape := ⟨3, ![128, 64, 2048]⟩
abbrev S_ : Shape := ⟨0, ![]⟩
abbrev S128x64 : Shape := ⟨2, ![128, 64]⟩
abbrev S128x64x1 : Shape := ⟨3, ![128, 64, 1]⟩
abbrev S128x64x64 : Shape := ⟨3, ![128, 64, 64]⟩
abbrev S128 : Shape := ⟨1, ![128]⟩

abbrev nBuf : Space → Nat
  | .hbm => 29
  | .vmem => 0
  | .smem => 0
  | _ => 0

abbrev bufTy : (tb : Table) → Fin (tcTables nBuf tb) → BufTy
  | .hbm, ⟨0, _⟩ => ⟨S128x64x64x32, .f32⟩
  | .hbm, ⟨1, _⟩ => ⟨S128x64x2048, .f32⟩
  | .hbm, ⟨2, _⟩ => ⟨S128x64x2048, .f32⟩
  | .hbm, ⟨3, _⟩ => ⟨S_, .f32⟩
  | .hbm, ⟨4, _⟩ => ⟨S128x64, .f32⟩
  | .hbm, ⟨5, _⟩ => ⟨S128x64x1, .f32⟩
  | .hbm, ⟨6, _⟩ => ⟨S128x64x1, .f32⟩
  | .hbm, ⟨7, _⟩ => ⟨S_, .f32⟩
  | .hbm, ⟨8, _⟩ => ⟨S128x64x1, .f32⟩
  | .hbm, ⟨9, _⟩ => ⟨S128x64x1, .f32⟩
  | .hbm, ⟨10, _⟩ => ⟨S128x64x2048, .f32⟩
  | .hbm, ⟨11, _⟩ => ⟨S128x64x2048, .f32⟩
  | .hbm, ⟨12, _⟩ => ⟨S128x64x64, .f32⟩
  | .hbm, ⟨13, _⟩ => ⟨S128x64x2048, .f32⟩
  | .hbm, ⟨14, _⟩ => ⟨S_, .f32⟩
  | .hbm, ⟨15, _⟩ => ⟨S128x64, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S128x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  shapeCasts_S128x64x64x32_S128x64x2048 : S128x64x64x32.ShapeCasts S128x64x2048
  reducesTo_S128x64x2048_S128x64_d2 : S128x64x2048.ReducesTo [2] S128x64
  h_S_ : 0 < S_.numel
  bcast_S128x64_S128x64x1_0_1 : S128x64.BroadcastsInDim S128x64x1 (![0, 1] : Fin 2 → Fin S128x64x1.rank)
  bcast_S_S128x64x1 : S_.BroadcastsInDim S128x64x1 (![] : Fin 0 → Fin S128x64x1.rank)
  bcast_S128x64x1_S128x64x2048_0_1_2 : S128x64x1.BroadcastsInDim S128x64x2048 (![0, 1, 2] : Fin 3 → Fin S128x64x2048.rank)
  reducesTo_S128x64_S128_d1 : S128x64.ReducesTo [1] S128
  reducesTo_S128_S_d0 : S128.ReducesTo [0] S_
  reducesTo_S128x64x64_S128_d1_2 : S128x64x64.ReducesTo [1, 2] S128
  dot_S128x64x2048_S128x64x2048_S128x64x64_2_2_1_1_0_0_wf : DotDims.WF S128x64x2048 S128x64x2048 S128x64x64 [2] [2] [1] [1] [0] [0]

variable [Facts₀]

def dot_S128x64x2048_S128x64x2048_S128x64x64_2_2_1_1_0_0 : DotDims S128x64x2048 S128x64x2048 S128x64x64 where
  lhsContracting := [2]
  rhsContracting := [2]
  lhsNonContracting := [1]
  rhsNonContracting := [1]
  lhsBatch := [0]
  rhsBatch := [0]
  wf := dot_S128x64x2048_S128x64x2048_S128x64x64_2_2_1_1_0_0_wf

class Facts : Prop extends Facts₀ where

variable [Facts]
-- ==== Proof.Pieces.lean ====
/-
  What the body leaves in the two running totals' buffers, in each of its two cases, as values.
  At the first grid point the body stores zero in each total, reads it back, and stores the total's update over that
  zero; at every later point it reads what the point before left and stores the update over it. Each buffer ends with
  one store through its whole extent being the last, so it holds that store's value, whose loads read whole buffers.
-/
import proofs.«102277_j395136991424_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A later point leaves in the first total's buffer its update of what it found there. -/
theorem later_1 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : ¬cond0_0 i) (x : Vec F S16x64x2048 .f32) (xo1 xo2 : Vec F S1x1 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S16x64x2048) hz3,
    View.ld_unit_zero (S := S1x1) hz]

/-- A later point leaves in the second total's buffer its update of what it found there. -/
theorem later_2 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : ¬cond0_0 i) (x : Vec F S16x64x2048 .f32) (xo1 xo2 : Vec F S1x1 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S16x64x2048) hz3,
    View.ld_unit_zero (S := S1x1) hz]

/-- The first point leaves in the first total's buffer its update of the zero it has just stored there. -/
theorem first_1 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : cond0_0 i) (x : Vec F S16x64x2048 .f32) :
    out0_A_1 c i a1 h1 a2 h2 a3 h3 hc x = k0_pay4 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S16x64x2048) hz3]

/-- The first point leaves in the second total's buffer its update of the zero it has just stored there. -/
theorem first_2 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : cond0_0 i) (x : Vec F S16x64x2048 .f32) :
    out0_A_2 c i a1 h1 a2 h2 a3 h3 hc x = k0_pay5 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S16x64x2048) hz3]

end Cert.KernelIdeal.Pieces

end
-- ==== Proof.GramSum.lean ====
/-
  The algebra the two programs differ by, over the reals: the sum of all entries of a Gram matrix
  is the sum over the columns of the squared column sums.
-/
import Idealize.ShloMosaic.PureOps.Ideal

namespace Cert.GramSum

open Finset

/-- For a real matrix `a` with rows `n` and columns `d`, the sum over the columns of the square of the
    column's sum is the sum over all pairs of rows of their inner products. -/
theorem sq_colsum_eq_gram {ι κ : Type*} [Fintype ι] [Fintype κ] (a : ι → κ → ℝ) :
    ∑ d, (∑ n, a n d) * (∑ n, a n d) = ∑ n, ∑ m, ∑ d, a n d * a m d := by
  have h : ∀ d, (∑ n, a n d) * (∑ n, a n d) = ∑ n, ∑ m, a n d * a m d := fun d =>
    Finset.sum_mul_sum _ _ _ _
  calc ∑ d, (∑ n, a n d) * (∑ n, a n d)
      = ∑ d, ∑ n, ∑ m, a n d * a m d := Finset.sum_congr rfl fun d _ => h d
    _ = ∑ n, ∑ d, ∑ m, a n d * a m d := Finset.sum_comm
    _ = ∑ n, ∑ m, ∑ d, a n d * a m d := Finset.sum_congr rfl fun n _ => Finset.sum_comm

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.GramSum
-- ==== Proof.RowNorm.lean ====
/-
  The mathematics both programs compute, stated once over the extended reals.

  The input, reshaped, is an array `X` of 128 batch entries, each a slab of 64 rows of 2048 numbers. Both programs
  return `simTotal / 128 - diagTotal / 128` (`loss`), where `diagTotal` is the sum over the entries of `diag` and
  `simTotal` the sum over the entries of the entry's self-similarity — which the kernel computes as `colSq` and the
  reference as `gram`.

  A row `r` of 2048 numbers is divided by `max (sqrt (sum of its squares)) eps` (`attRow`). For a slab `A` of 64
  rows, `diag A` is the sum of the squares of all normalised entries, `colSq A` the sum over the columns of the
  squared column sums of the normalised slab, and `gram A` the sum of all inner products of pairs of normalised
  rows. When the rows are real, `colSq A = gram A`: the product of two finite sums of reals is the double sum of the
  products. On the extended reals that law needs every term real, which is where the finiteness of the input is used:
  a real row has a real, non-negative sum of squares, hence a real square root, the maximum with the positive real
  `eps` is a positive real, and the quotient by it is real.
-/
import proofs.«102277_j395136991424_2_alg».proof.Proof.GramSum
import Idealize.ShloMosaic.PureOps.Ideal.Laws
import Idealize.ShloMosaic.Lib.ValueIdx

noncomputable section

namespace Cert.RowNorm

open Idealize.ShloMosaic Finset

/-- The lower bound of the norm, as the extended real its pattern denotes. -/
def eps : EReal := Ideal.ofBits .f32 0x2B8CBCCC#32

/-- `eps` is a positive real. -/
theorem eps_pos : ∃ e : ℝ, 0 < e ∧ eps = (e : EReal) := by
  refine ⟨9223372 / 2 ^ 63, by positivity, ?_⟩
  unfold eps
  simp [Ideal.ofBits, Ideal.ieee, -EReal.coe_mul]
  norm_num

/-- The norm a row is divided by. -/
def nrm (r : Fin 2048 → EReal) : EReal := max (Ideal.sqrt (∑ d, r d * r d)) eps

/-- A row divided by its norm. -/
def attRow (r : Fin 2048 → EReal) (d : Fin 2048) : EReal := Ideal.div (r d) (nrm r)

/-- The norm of a real row is a positive real. -/
theorem nrm_real (r : Fin 2048 → EReal) (hr : ∀ d, ∃ x : ℝ, r d = x) : ∃ y : ℝ, 0 < y ∧ nrm r = (y : EReal) := by
  choose x hx using hr
  obtain ⟨e, he, hee⟩ := eps_pos
  refine ⟨max (Real.sqrt (∑ d, x d * x d)) e, lt_max_of_lt_right he, ?_⟩
  unfold nrm
  have hs : (∑ d, r d * r d) = ((∑ d, x d * x d : ℝ) : EReal) := by
    rw [Cert.GramSum.coe_sum]
    exact Finset.sum_congr rfl fun d _ => by rw [hx d, EReal.coe_mul]
  rw [hs, Ideal.sqrt_coe, if_neg (not_lt.mpr (Finset.sum_nonneg fun d _ => mul_self_nonneg (x d))), hee]
  exact (EReal.coe_strictMono.monotone.map_max).symm

/-- A real row divided by its norm is real. -/
theorem attRow_real (r : Fin 2048 → EReal) (hr : ∀ d, ∃ x : ℝ, r d = x) (d : Fin 2048) : ∃ a : ℝ, attRow r d = a := by
  obtain ⟨y, hy, hn⟩ := nrm_real r hr
  obtain ⟨x, hx⟩ := hr d
  refine ⟨x * (1 / y), ?_⟩
  unfold attRow
  rw [hn, Ideal.div_coe hy.ne', hx, EReal.coe_mul]

/-- The sum of the squares of the normalised entries of a slab of 64 rows. -/
def diag (A : Fin 64 → Fin 2048 → EReal) : EReal := ∑ n, ∑ d, attRow (A n) d * attRow (A n) d

/-- The sum over the columns of the squared column sums of the normalised slab. -/
def colSq (A : Fin 64 → Fin 2048 → EReal) : EReal := ∑ d, (∑ n, attRow (A n) d) * (∑ n, attRow (A n) d)

/-- The sum of the inner products of all pairs of normalised rows. -/
def gram (A : Fin 64 → Fin 2048 → EReal) : EReal := ∑ n, ∑ m, ∑ d, attRow (A n) d * attRow (A m) d

/-- For a real slab the two are equal. -/
theorem colSq_eq_gram (A : Fin 64 → Fin 2048 → EReal) (hA : ∀ n d, ∃ x : ℝ, A n d = x) : colSq A = gram A := by
  have h : ∀ n d, ∃ a : ℝ, attRow (A n) d = a := fun n d => attRow_real (A n) (hA n) d
  choose a ha using h
  unfold colSq gram
  simp only [ha, ← EReal.coe_mul, ← Cert.GramSum.coe_sum]
  rw [Cert.GramSum.sq_colsum_eq_gram]

/-! ## The whole array -/

/-- Batch entry `b` of the array: 64 rows of 2048 numbers. -/
def slab (X : (⟨3, ![128, 64, 2048]⟩ : Shape).Idx → EReal) (b : Fin 128) : Fin 64 → Fin 2048 → EReal :=
  fun n d => X (ValueIdx.ix3 b n d)

/-- The sum over the batch entries of the squares of the normalised numbers. -/
def diagTotal (X : (⟨3, ![128, 64, 2048]⟩ : Shape).Idx → EReal) : EReal := ∑ b, diag (slab X b)

/-- The sum over the batch entries of the squared column sums: the kernel's form of the self-similarity total. -/
def simTotal (X : (⟨3, ![128, 64, 2048]⟩ : Shape).Idx → EReal) : EReal := ∑ b, colSq (slab X b)

/-- The sum over the batch entries of all inner products of pairs of normalised rows: the reference's form. -/
def gramTotal (X : (⟨3, ![128, 64, 2048]⟩ : Shape).Idx → EReal) : EReal := ∑ b, gram (slab X b)

/-- On a real array the two forms of the self-similarity total agree. -/
theorem simTotal_eq_gramTotal (X : (⟨3, ![128, 64, 2048]⟩ : Shape).Idx → EReal) (hX : ∀ i, ∃ x : ℝ, X i = x) :
    simTotal X = gramTotal X :=
  Finset.sum_congr rfl fun b _ => colSq_eq_gram (slab X b) fun n d => hX _

/-- What both programs do with the two totals: each is divided by the batch size 128, and the second quotient is
    subtracted from the first. -/
def loss (s d : (⟨0, ![]⟩ : Shape).Idx → EReal) : (⟨0, ![]⟩ : Shape).Idx → EReal :=
  subf (F := Ideal) (φ := .f32) (Host.divf (F := Ideal) (φ := .f32) s (constant (F := Ideal) ⟨0, ![]⟩ .f32 0x43000000#32))
    (Host.divf (F := Ideal) (φ := .f32) d (constant (F := Ideal) ⟨0, ![]⟩ .f32 0x43000000#32))

end Cert.RowNorm

end
-- ==== Proof.LibKeepdims.lean ====
/-
  General lemmas: trailing unit axes added by a shape cast, a trailing unit axis broadcast, and sums along one axis
  of a two- or three-dimensional array, each read at an index written by its coordinates.
  For any extents; the reductions at the exact values (extended reals).
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- A `[B, R]` array cast to `[B, R, 1]` reads, at `(b, r, u)`, the operand at `(b, r)`. -/
theorem cast_ab_ab1_apply {B R : ℕ} (v : (⟨2, ![B, R]⟩ : Shape).Idx → α)
    (h : (⟨2, ![B, R]⟩ : Shape).ShapeCasts ⟨3, ![B, R, 1]⟩) (b : Fin B) (r : Fin R) (u : Fin 1) :
    shapeCast ⟨3, ![B, R, 1]⟩ v h (ix3 b r u) = v (ix2 b r) :=
  shapeCast_apply v h _ _ (by
    have hu : u.val = 0 := by omega
    rw [Shape.rowMajor_val_two, Shape.rowMajor_val_three]
    show b.val * R + r.val = (b.val * R + r.val) * 1 + u.val
    omega)

/-- A `[B]` array cast to `[B, 1]` reads, at `(b, u)`, the operand at `b`. -/
theorem cast_a_a1_apply {B : ℕ} (v : (⟨1, ![B]⟩ : Shape).Idx → α)
    (h : (⟨1, ![B]⟩ : Shape).ShapeCasts ⟨2, ![B, 1]⟩) (b : Fin B) (u : Fin 1) :
    shapeCast ⟨2, ![B, 1]⟩ v h (ix2 b u) = v (ix1 b) :=
  shapeCast_apply v h _ _ (by
    have hu : u.val = 0 := by omega
    rw [Shape.rowMajor_val_one, Shape.rowMajor_val_two]
    show b.val = b.val * 1 + u.val
    omega)

/-- A `[B, R, 1]` array broadcast to `[B, R, C]` reads, at `(b, r, c)`, the operand at `(b, r, 0)`. -/
theorem bcast_ab1_abc_apply {B R C : ℕ} (v : (⟨3, ![B, R, 1]⟩ : Shape).Idx → α)
    (h : (⟨3, ![B, R, 1]⟩ : Shape).Broadcasts ⟨3, ![B, R, C]⟩) (b : Fin B) (r : Fin R) (c : Fin C) :
    broadcastTo ⟨3, ![B, R, C]⟩ v h (ix3 b r c) = v (ix3 b r (0 : Fin 1)) := by
  refine broadcastTo_apply v h (ix3 b r c) (ix3 b r (0 : Fin 1)) fun ax => ?_
  match ax with
  | ⟨0, _⟩ =>
    show b.val = if B = 1 then 0 else b.val
    split
    · have := b.isLt; omega
    · rfl
  | ⟨1, _⟩ =>
    show r.val = if R = 1 then 0 else r.val
    split
    · have := r.isLt; omega
    · rfl
  | ⟨2, _⟩ =>
    show (0 : ℕ) = if (1 : ℕ) = 1 then 0 else c.val
    rw [if_pos rfl]

/-- At the exact values a sum along the last axis of a `[B, R, C]` array reads, at `(b, r)`, the sum over `k` of the
    operand at `(b, r, k)`. -/
theorem sum_axis2_of3_apply {B R C : ℕ} {φ : FTy} (src : FVec Ideal ⟨3, ![B, R, C]⟩ φ) (acc : BitVec φ.bits)
    (h : (⟨3, ![B, R, C]⟩ : Shape).Reduces [2] ⟨2, ![B, R]⟩) (hφ : FKind.Formats φ) (hacc : acc = FKind.add.neutral φ hφ)
    (b : Fin B) (r : Fin R) :
    multiReduction .add [2] ⟨2, ![B, R]⟩ src acc h hφ hacc (ix2 b r) = ∑ k : Fin C, src (ix3 b r k) := by
  refine (Ideal.multiReduction_add_single src acc h hφ hacc (ix2 b r)).trans ?_
  exact Finset.sum_congr rfl fun k _ => congrArg src (funext fun a => Fin.ext (by
    match a with
    | ⟨0, _⟩ => rfl
    | ⟨1, _⟩ => rfl
    | ⟨2, _⟩ => rfl))

/-- At the exact values a sum along the middle axis of a `[B, R, C]` array reads, at `(b, c)`, the sum over `k` of the
    operand at `(b, k, c)`. -/
theorem sum_axis1_of3_apply {B R C : ℕ} {φ : FTy} (src : FVec Ideal ⟨3, ![B, R, C]⟩ φ) (acc : BitVec φ.bits)
    (h : (⟨3, ![B, R, C]⟩ : Shape).Reduces [1] ⟨2, ![B, C]⟩) (hφ : FKind.Formats φ) (hacc : acc = FKind.add.neutral φ hφ)
    (b : Fin B) (c : Fin C) :
    multiReduction .add [1] ⟨2, ![B, C]⟩ src acc h hφ hacc (ix2 b c) = ∑ k : Fin R, src (ix3 b k c) := by
  refine (Ideal.multiReduction_add_single src acc h hφ hacc (ix2 b c)).trans ?_
  exact Finset.sum_congr rfl fun k _ => congrArg src (funext fun a => Fin.ext (by
    match a with
    | ⟨0, _⟩ => rfl
    | ⟨1, _⟩ => rfl
    | ⟨2, _⟩ => rfl))

/-- At the exact values a sum along the last axis of a `[B, C]` array reads, at `b`, the sum over `k` of the operand
    at `(b, k)`. -/
theorem sum_axis1_of2_apply {B C : ℕ} {φ : FTy} (src : FVec Ideal ⟨2, ![B, C]⟩ φ) (acc : BitVec φ.bits)
    (h : (⟨2, ![B, C]⟩ : Shape).Reduces [1] ⟨1, ![B]⟩) (hφ : FKind.Formats φ) (hacc : acc = FKind.add.neutral φ hφ)
    (b : Fin B) :
    multiReduction .add [1] ⟨1, ![B]⟩ src acc h hφ hacc (ix1 b) = ∑ k : Fin C, src (ix2 b k) := by
  refine (Ideal.multiReduction_add_single src acc h hφ hacc (ix1 b)).trans ?_
  exact Finset.sum_congr rfl fun k _ => congrArg src (funext fun a => Fin.ext (by
    match a with
    | ⟨0, _⟩ => rfl
    | ⟨1, _⟩ => rfl))

/-- At the exact values a sum along the first axis of a `[B, C]` array reads, at `c`, the sum over `k` of the operand
    at `(k, c)`. -/
theorem sum_axis0_of2_apply {B C : ℕ} {φ : FTy} (src : FVec Ideal ⟨2, ![B, C]⟩ φ) (acc : BitVec φ.bits)
    (h : (⟨2, ![B, C]⟩ : Shape).Reduces [0] ⟨1, ![C]⟩) (hφ : FKind.Formats φ) (hacc : acc = FKind.add.neutral φ hφ)
    (c : Fin C) :
    multiReduction .add [0] ⟨1, ![C]⟩ src acc h hφ hacc (ix1 c) = ∑ k : Fin B, src (ix2 k c) := by
  refine (Ideal.multiReduction_add_single src acc h hφ hacc (ix1 c)).trans ?_
  exact Finset.sum_congr rfl fun k _ => congrArg src (funext fun a => Fin.ext (by
    match a with
    | ⟨0, _⟩ => rfl
    | ⟨1, _⟩ => rfl))

end Cert.LibKeepdims

end
-- ==== Proof.Payload.lean ====
/-
  What one grid point of the kernel computes from its block `x` of 16 batch entries (each 64 rows of 2048 numbers) and
  the two running totals it finds, read at the exact values:
  * every entry is divided by its row's norm (`normalised_apply`);
  * the first running total grows by the sum over the block's entries of `colSq` — the sum over the columns of the
    squared column sums of the normalised entry (`simTotal_apply`);
  * the second grows by the sum over the block's entries of `diag` — the sum of the squares of the normalised
    numbers (`diagTotal_apply`);
  * a total reset at the first point starts from zero (`reset1_apply`, `reset2_apply`).
-/
import proofs.«102277_j395136991424_2_alg».proof.Proof.Gen.KernelIdeal.Skeleton
import proofs.«102277_j395136991424_2_alg».proof.Proof.RowNorm
import proofs.«102277_j395136991424_2_alg».proof.Proof.LibKeepdims

noncomputable section

namespace Cert.KernelIdeal.Payload

open Cert.KernelIdeal Cert.KernelIdeal.Gen Idealize.ShloMosaic Idealize.ShloMosaic.ValueIdx Cert.RowNorm Cert.LibKeepdims

/-- The block with every row divided by its norm, at entry `b`, row `n`, column `d`. -/
theorem normalised_apply (x : Vec Ideal S16x64x2048 .f32) (b : Fin 16) (n : Fin 64) (d : Fin 2048) :
    k0_pay3 (F := Ideal) x (ix3 b n d) = attRow (fun k => x (ix3 b n k)) d := by
  unfold k0_pay3
  simp only [shapeCast_self]
  show Ideal.div (x (ix3 b n d)) (broadcastTo S16x64x2048 _ _ (ix3 b n d)) = Ideal.div (x (ix3 b n d)) (nrm fun k => x (ix3 b n k))
  refine congrArg (Ideal.div (x (ix3 b n d))) ?_
  refine (bcast_ab1_abc_apply _ _ b n d).trans ?_
  show max (Ideal.sqrt (shapeCast S16x64x1 _ _ (ix3 b n (0 : Fin 1)))) eps = max (Ideal.sqrt (∑ k, x (ix3 b n k) * x (ix3 b n k))) eps
  refine congrArg (fun z => max (Ideal.sqrt z) eps) ?_
  refine (cast_ab_ab1_apply _ _ b n (0 : Fin 1)).trans ?_
  exact sum_axis2_of3_apply _ _ _ _ _ b n

/-- The second running total after a point: what it was plus the block's sum of squares of the normalised numbers. -/
theorem diagTotal_apply (x : Vec Ideal S16x64x2048 .f32) (acc : Vec Ideal S1x1 .f32) (j : S1x1.Idx) :
    k0_pay5 (F := Ideal) x acc j = acc j + ∑ b : Fin 16, diag (fun n d => x (ix3 b n d)) := by
  obtain ⟨u0, u1, rfl⟩ : ∃ (u0 u1 : Fin 1), j = ix2 u0 u1 := ⟨j 0, j 1, eq_ix2 j⟩
  unfold k0_pay5
  simp only [shapeCast_self]
  show acc (ix2 u0 u1) + shapeCast S1x1 _ _ (ix2 u0 u1) = _
  refine congrArg (acc (ix2 u0 u1) + ·) ?_
  refine (cast_a_a1_apply _ _ u0 u1).trans ?_
  refine (sum_axis0_of2_apply _ _ _ _ _ u0).trans ?_
  refine Finset.sum_congr rfl fun b _ => ?_
  refine (cast_a_a1_apply _ _ b u0).trans ?_
  refine (sum_axis1_of2_apply _ _ _ _ _ b).trans ?_
  unfold diag
  refine Finset.sum_congr rfl fun n _ => ?_
  refine (sum_axis2_of3_apply _ _ _ _ _ b n).trans ?_
  refine Finset.sum_congr rfl fun d _ => ?_
  show k0_pay3 (F := Ideal) x (ix3 b n d) * k0_pay3 (F := Ideal) x (ix3 b n d) = _
  rw [normalised_apply]

/-- The first running total after a point: what it was plus, over the block's entries, the sum over the columns of the
    squared column sums of the normalised entry. -/
theorem simTotal_apply (x : Vec Ideal S16x64x2048 .f32) (acc : Vec Ideal S1x1 .f32) (j : S1x1.Idx) :
    k0_pay4 (F := Ideal) x acc j = acc j + ∑ b : Fin 16, colSq (fun n d => x (ix3 b n d)) := by
  obtain ⟨u0, u1, rfl⟩ : ∃ (u0 u1 : Fin 1), j = ix2 u0 u1 := ⟨j 0, j 1, eq_ix2 j⟩
  unfold k0_pay4
  simp only [shapeCast_self]
  show acc (ix2 u0 u1) + shapeCast S1x1 _ _ (ix2 u0 u1) = _
  refine congrArg (acc (ix2 u0 u1) + ·) ?_
  refine (cast_a_a1_apply _ _ u0 u1).trans ?_
  refine (sum_axis0_of2_apply _ _ _ _ _ u0).trans ?_
  refine Finset.sum_congr rfl fun b _ => ?_
  refine (cast_a_a1_apply _ _ b u0).trans ?_
  refine (sum_axis1_of2_apply _ _ _ _ _ b).trans ?_
  unfold colSq
  refine Finset.sum_congr rfl fun d _ => ?_
  have e : ∀ (h : S16x64x2048.Reduces [1] S16x2048) (hφ : FKind.Formats .f32) (hacc : (0x00000000#32 : BitVec 32) = FKind.add.neutral .f32 hφ),
      multiReduction .add [1] S16x2048 (k0_pay3 (F := Ideal) x) 0x00000000#32 h hφ hacc (ix2 b d)
        = ∑ n : Fin 64, attRow (fun k => x (ix3 b n k)) d := fun h hφ hacc =>
    (sum_axis1_of3_apply _ _ h hφ hacc b d).trans (Finset.sum_congr rfl fun n _ => normalised_apply x b n d)
  exact congrArg₂ (· * ·) (e _ _ _) (e _ _ _)

/-- The value a reset stores in the first running total is zero. -/
theorem reset1_apply (j : S1x1.Idx) : k0_pay1 (F := Ideal) j = 0 := Ideal.ofBits_zero_f32

/-- The value a reset stores in the second running total is zero. -/
theorem reset2_apply (j : S1x1.Idx) : k0_pay2 (F := Ideal) j = 0 := Ideal.ofBits_zero_f32

end Cert.KernelIdeal.Payload

end
-- ==== Proof.BlockSums.lean ====
/-
  The 128 batch entries are visited in 8 blocks of 16 consecutive ones: a sum over the 128 entries is the sum over
  the blocks of the sums inside each block, and the running total over the first blocks reaches it after the eighth.
  Only commutativity and associativity of the sum are used.
-/
import Mathlib.Algebra.BigOperators.Fin
import Mathlib.Algebra.BigOperators.Ring.Finset
import Mathlib.Logic.Equiv.Fin.Basic

namespace Cert.BlockSums

open Finset

/-- Entry `j` of block `i`, as one of the 128 batch entries (block numbers beyond the eighth wrap around; they are
    never used). -/
def entry (i : ℕ) (j : Fin 16) : Fin 128 := ⟨(16 * i + j.val) % 128, Nat.mod_lt _ (by decide)⟩

theorem entry_val (i : ℕ) (hi : i < 8) (j : Fin 16) : (entry i j).val = 16 * i + j.val := by
  have := j.isLt
  show (16 * i + j.val) % 128 = _
  omega

/-- A sum over the 128 entries is the sum over the 8 blocks of the sums over each block's 16 entries. -/
theorem sum_blocks {M : Type*} [AddCommMonoid M] (f : Fin 128 → M) :
    ∑ i : Fin 8, ∑ j : Fin 16, f (entry i.val j) = ∑ b : Fin 128, f b := by
  have e : ∀ p : Fin 8 × Fin 16, entry p.1.val p.2 = (finProdFinEquiv p : Fin (8 * 16)) := fun p => by
    apply Fin.ext
    rw [entry_val _ p.1.isLt]
    show 16 * p.1.val + p.2.val = p.2.val + 16 * p.1.val
    omega
  calc ∑ i : Fin 8, ∑ j : Fin 16, f (entry i.val j)
      = ∑ p : Fin 8 × Fin 16, f (entry p.1.val p.2) :=
        (Fintype.sum_prod_type (fun p : Fin 8 × Fin 16 => f (entry p.1.val p.2))).symm
    _ = ∑ p : Fin 8 × Fin 16, f (finProdFinEquiv p : Fin (8 * 16)) := Finset.sum_congr rfl fun p _ => by rw [e p]
    _ = ∑ b : Fin 128, f b := Equiv.sum_comp (finProdFinEquiv : Fin 8 × Fin 16 ≃ Fin (8 * 16)) f

/-- The running total after the block numbered `n`. -/
def upTo {M : Type*} [AddCommMonoid M] (g : ℕ → M) (n : ℕ) : M := ∑ i ∈ Finset.range (n + 1), g i

theorem upTo_zero {M : Type*} [AddCommMonoid M] (g : ℕ → M) : upTo g 0 = g 0 := by
  simp [upTo]

theorem upTo_succ {M : Type*} [AddCommMonoid M] (g : ℕ → M) (n : ℕ) : upTo g (n + 1) = upTo g n + g (n + 1) :=
  Finset.sum_range_succ _ _

/-- After the eighth block the running total of the blocks' sums is the sum over all 128 entries. -/
theorem upTo_blocks {M : Type*} [AddCommMonoid M] (f : Fin 128 → M) :
    upTo (fun i => ∑ j : Fin 16, f (entry i j)) 7 = ∑ b : Fin 128, f b := by
  rw [← sum_blocks f]
  exact Finset.sum_range (fun i => ∑ j : Fin 16, f (entry i j))

end Cert.BlockSums
-- ==== Proof.KernelTotals.lean ====
/-
  The kernel's result, read off its run.

  The grid has 8 points; point `t` is handed batch entries `16 t .. 16 t + 15` of the reshaped input `X`
  (`block_apply`). The two running totals live in one-element buffers that are reset at point 0, updated at every
  point, and written back once, after point 7. So after point `n` they hold the sums, over the blocks up to `n`, of
  the blocks' `colSq` and `diag` sums (`totals_after`, by induction on the point), and after the last point the sums
  over all 128 batch entries (`BlockSums.upTo_blocks`). The host operations after the region divide each total by 128
  and subtract: `RowNorm.loss`.
-/
import proofs.«102277_j395136991424_2_alg».proof.Proof.Pieces
import proofs.«102277_j395136991424_2_alg».proof.Proof.Payload
import proofs.«102277_j395136991424_2_alg».proof.Proof.BlockSums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Totals

open Cert.KernelIdeal Cert.KernelIdeal.Gen Cert.RowNorm Cert.BlockSums Idealize.ShloMosaic.ValueIdx

variable (m : (ℓ : Loc nD τ sig) → Buf (Elt Ideal) ℓ) (ρ : Dev nD → PrngReg)

/-- The reshaped input as the region finds it. -/
abbrev X (c : Dev nD) : S128x64x2048.Idx → EReal := V m c main_v0

/-- It is the reshape of the argument. -/
theorem X_eq (c : Dev nD) :
    X m c = shapeCast S128x64x2048 (m ((c : Thread nD τ).loc main_arg0)) Facts₀.shapeCasts_S128x64x64x32_S128x64x2048 := by
  show StableHlo.after hostOps0 (fun b => m (c, b)) (Proc.devRef .tc main_v0) = _
  after_results
  rfl

/-- Where the input window's block sits at each point: block row `t`, the other two axes whole. -/
theorem index_facts : ∀ t : Fin cfg0.N,
    win0_0.index t (0 : Fin 3) = t.val ∧ win0_0.index t (1 : Fin 3) = 0 ∧ win0_0.index t (2 : Fin 3) = 0 :=
  (by decide +kernel : ∀ t : Fin grid0.N,
    win0_0.index t (0 : Fin 3) = t.val ∧ win0_0.index t (1 : Fin 3) = 0 ∧ win0_0.index t (2 : Fin 3) = 0)

/-- Entry `b` of the block at point `t` is batch entry `16 t + b` of the input. -/
theorem block_apply (c : Dev nD) (t : Fin cfg0.N) (b : Fin 16) (n : Fin 64) (d : Fin 2048) :
    (iblk m c 0 t : Vec Ideal S16x64x2048 .f32) (ix3 b n d) = X m c (ix3 (entry t.val b) n d) := by
  have hN : t.val < 8 := lt_of_lt_of_eq t.isLt (show cfg0.N = 8 from N_0)
  obtain ⟨h0, h1, h2⟩ := index_facts t
  unfold iblk
  rw [View.read_apply]
  show V m c main_v0 _ = V m c main_v0 _
  refine congrArg (V m c main_v0) (funext fun a => Fin.ext ?_)
  match a with
  | ⟨0, _⟩ =>
    show win0_0.index t 0 * 16 + 1 * b.val = (16 * t.val + b.val) % 128
    rw [h0]; have := b.isLt; omega
  | ⟨1, _⟩ =>
    show win0_0.index t 1 * 64 + 1 * n.val = n.val
    rw [h1]; omega
  | ⟨2, _⟩ =>
    show win0_0.index t 2 * 2048 + 1 * d.val = d.val
    rw [h2]; omega

/-- The self-similarity sum of block `i`. -/
def blockSim (Y : S128x64x2048.Idx → EReal) (i : ℕ) : EReal := ∑ j : Fin 16, colSq (slab Y (entry i j))

/-- The sum of squares of block `i`. -/
def blockDiag (Y : S128x64x2048.Idx → EReal) (i : ℕ) : EReal := ∑ j : Fin 16, diag (slab Y (entry i j))

/-- The first total's update at point `t`, over a buffer holding `s`. -/
theorem point_sim (c : Dev nD) (t : Fin cfg0.N) (acc : Vec Ideal S1x1 .f32) (s : EReal) (hacc : ∀ j, acc j = s)
    (j : S1x1.Idx) : k0_pay4 (F := Ideal) (iblk m c 0 t) acc j = s + blockSim (X m c) t.val := by
  refine (Payload.simTotal_apply (iblk m c 0 t) acc j).trans ?_
  rw [hacc j]
  refine congrArg (s + ·) (Finset.sum_congr rfl fun b _ => congrArg colSq (funext fun n => funext fun d => ?_))
  exact block_apply m c t b n d

/-- The second total's update at point `t`, over a buffer holding `s`. -/
theorem point_diag (c : Dev nD) (t : Fin cfg0.N) (acc : Vec Ideal S1x1 .f32) (s : EReal) (hacc : ∀ j, acc j = s)
    (j : S1x1.Idx) : k0_pay5 (F := Ideal) (iblk m c 0 t) acc j = s + blockDiag (X m c) t.val := by
  refine (Payload.diagTotal_apply (iblk m c 0 t) acc j).trans ?_
  rw [hacc j]
  refine congrArg (s + ·) (Finset.sum_congr rfl fun b _ => congrArg diag (funext fun n => funext fun d => ?_))
  exact block_apply m c t b n d

/-- What the two buffers hold after point `n`: the running totals over the blocks up to `n`. -/
theorem totals_after (c : Dev nD) : ∀ (n : ℕ) (h : n < cfg0.N),
    outsAt0 m c n h = ((fun _ => upTo (blockSim (X m c)) n : Vec Ideal S1x1 .f32), (fun _ => upTo (blockDiag (X m c)) n : Vec Ideal S1x1 .f32))
  | 0, h => by
    refine (outsAt0_A m c ⟨0, h⟩ rfl).trans ?_
    rw [Pieces.first_1, Pieces.first_2]
    refine Prod.ext (funext fun j => ?_) (funext fun j => ?_)
    · refine (point_sim m c ⟨0, h⟩ (k0_pay1 (F := Ideal)) 0 Payload.reset1_apply j).trans ?_
      rw [zero_add]
      exact (upTo_zero (blockSim (X m c))).symm
    · refine (point_diag m c ⟨0, h⟩ (k0_pay2 (F := Ideal)) 0 Payload.reset2_apply j).trans ?_
      rw [zero_add]
      exact (upTo_zero (blockDiag (X m c))).symm
  | n + 1, h => by
    have hN : cfg0.N = 8 := N_0
    have hB : ¬(⟨n + 1, h⟩ : Fin cfg0.N).val % 8 = 0 := by dsimp only; omega
    rw [outsAt0_B m c ⟨n + 1, h⟩ hB, Pieces.later_1, Pieces.later_2]
    show (k0_pay4 (F := Ideal) (iblk m c 0 ⟨n + 1, h⟩) (outsAt0 m c n _).1, k0_pay5 (F := Ideal) (iblk m c 0 ⟨n + 1, h⟩) (outsAt0 m c n _).2) = _
    rw [totals_after c n]
    refine Prod.ext (funext fun j => ?_) (funext fun j => ?_)
    · exact (point_sim m c ⟨n + 1, h⟩ _ _ (fun _ => rfl) j).trans (upTo_succ _ _).symm
    · exact (point_diag m c ⟨n + 1, h⟩ _ _ (fun _ => rfl) j).trans (upTo_succ _ _).symm

/-- The two results of the region, as contents of their one-element arrays. -/
def sim (c : Dev nD) : Buf (Elt Ideal) ((c : Thread nD τ).loc main_v1_0) := fun _ => (upTo (blockSim (X m c)) 7 : EReal)
def dg (c : Dev nD) : Buf (Elt Ideal) ((c : Thread nD τ).loc main_v1_1) := fun _ => (upTo (blockDiag (X m c)) 7 : EReal)

theorem hz : (![0, 0] : Fin 2 → Nat) = fun _ => 0 := funext fun a => by fin_cases a <;> rfl

/-- The one write-back of the first total, after point 7, writes the running total over all blocks. -/
theorem flushed_1 (c : Dev nD) (t : Fin cfg0.N) (hf : (cfg0.win 1).flush t = true) :
    (dats m 0 c).flushed 1 t = ((cfg0.win 1).blk t).view.read (Elt Ideal) (sim m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1, totals_after]
  have hz' : (fun a => win0_1.index t0_7 a * main_v1_0.ty.shape.size a) = fun _ => 0 := funext fun a => by fin_cases a <;> decide
  exact (Memref.read_access_unit_zero (Elt Ideal) main_v1_0 hz' (fun a => by rw [congrFun hz' a]; simp) (sim m c)).symm

/-- The one write-back of the second total likewise. -/
theorem flushed_2 (c : Dev nD) (t : Fin cfg0.N) (hf : (cfg0.win 2).flush t = true) :
    (dats m 0 c).flushed 2 t = ((cfg0.win 2).blk t).view.read (Elt Ideal) (dg m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2, totals_after]
  have hz' : (fun a => win0_2.index t0_7 a * main_v1_1.ty.shape.size a) = fun _ => 0 := funext fun a => by fin_cases a <;> decide
  exact (Memref.read_access_unit_zero (Elt Ideal) main_v1_1 hz' (fun a => by rw [congrFun hz' a]; simp) (dg m c)).symm

/-- The first result array ends holding the running total over all blocks: the last point's block is the array. -/
theorem final_1 (c : Dev nD) : (dats m 0 c).arrAt 1 cfg0.N = sim m c :=
  (dats m 0 c).arrAt_eq_of_cover 1 (sim m c) (flushed_1 m c) fun i =>
    ⟨t0_7, (flush0_1 t0_7).mpr rfl, by
      show i ∈ ((View.whole main_v1_0).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_7 0 * win0_1.size 0 ≤ (i 0 : Nat) ∧ (i 0 : Nat) < win0_1.index t0_7 0 * win0_1.size 0 + win0_1.xsize (grid0.coords t0_7) 0
        rw [show win0_1.index t0_7 0 * win0_1.size 0 = 0 from by decide +kernel, show win0_1.xsize (grid0.coords t0_7) 0 = 1 from by decide +kernel]; omega
      | ⟨1, _⟩ =>
        show win0_1.index t0_7 1 * win0_1.size 1 ≤ (i 1 : Nat) ∧ (i 1 : Nat) < win0_1.index t0_7 1 * win0_1.size 1 + win0_1.xsize (grid0.coords t0_7) 1
        rw [show win0_1.index t0_7 1 * win0_1.size 1 = 0 from by decide +kernel, show win0_1.xsize (grid0.coords t0_7) 1 = 1 from by decide +kernel]; omega⟩

/-- The second result array likewise. -/
theorem final_2 (c : Dev nD) : (dats m 0 c).arrAt 2 cfg0.N = dg m c :=
  (dats m 0 c).arrAt_eq_of_cover 2 (dg m c) (flushed_2 m c) fun i =>
    ⟨t0_7, (flush0_2 t0_7).mpr rfl, by
      show i ∈ ((View.whole main_v1_1).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel, show win0_2.xsize (grid0.coords t0_7) 0 = 1 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 1 from by decide +kernel]; omega⟩

/-- After the last block the running totals are the totals over all 128 batch entries. -/
theorem sim_total (c : Dev nD) : upTo (blockSim (X m c)) 7 = simTotal (X m c) :=
  upTo_blocks fun b => colSq (slab (X m c) b)
theorem diag_total (c : Dev nD) : upTo (blockDiag (X m c)) 7 = diagTotal (X m c) :=
  upTo_blocks fun b => diag (slab (X m c) b)

/-- The program's result: the host operations after the region applied to the two result arrays. -/
theorem tail_eq (c : Dev nD) :
    Pipeline.afterTail₀ cfgs (dats m) 0 (V0 m) [hostOps1] c main_v6
      = loss (fun _ => simTotal (X m c)) (fun _ => diagTotal (X m c)) := by
  unfold Pipeline.afterTail₀
  show StableHlo.after hostOps1 _ (Proc.devRef .tc main_v6) = _
  after_results
  have e1 : Pipeline.withArrays (cfgs 0).spec c (V0 m c) (fun w => (dats m 0 c).arrAt w (cfgs 0).N) (Proc.devRef .tc main_v1_0)
      = fun _ => simTotal (X m c) :=
    ((Pipeline.withArrays_arr spec0 launch0.win.arr_inj c _ _ 1).trans (final_1 m c)).trans (funext fun _ => sim_total m c)
  have e2 : Pipeline.withArrays (cfgs 0).spec c (V0 m c) (fun w => (dats m 0 c).arrAt w (cfgs 0).N) (Proc.devRef .tc main_v1_1)
      = fun _ => diagTotal (X m c) :=
    ((Pipeline.withArrays_arr spec0 launch0.win.arr_inj c _ _ 2).trans (final_2 m c)).trans (funext fun _ => diag_total m c)
  rw [e1, e2]
  rfl

/-- The run, read: the result at the loss of the two totals of the reshaped input, the argument unchanged. -/
theorem run : θ_run defs (onTc (τ := τ) (main (F := Ideal))) ⟨m, fun _ => 0, ρ⟩ fun r => ∀ c : Dev nD,
      r.2.mem ((c.tc : Thread nD τ).loc main_v6) = loss (fun _ => simTotal (X m c)) (fun _ => diagTotal (X m c))
      ∧ r.2.mem ((c.tc : Thread nD τ).loc main_arg0) = m ((c.tc : Thread nD τ).loc main_arg0) :=
  (θ_run defs _ _).mono (fun _ h c =>
      ⟨((h c).2 main_v6 (Pipeline.mem_restRefs_of main_v6 (by decide) (by decide))).trans (tail_eq m c),
        ((h c).2 main_arg0 (Pipeline.mem_restRefs_of main_arg0 (by decide) (by decide))).trans (W_main_arg0 m (dats m) c)⟩)
    (run_main m ρ)

end Cert.KernelIdeal.Totals

end
-- ==== Proof.LibHostSums.lean ====
/-
  General lemmas on sums over the index set of an array: a sum over the indices of a one- or three-dimensional array
  is the iterated sum over its coordinates, and at the exact values (extended reals) the host's sum of a `[B, R, C]`
  array over its last two axes reads, at `b`, the initial value plus the double sum over `(n, m)` of the operand at
  `(b, n, m)`. For any extents.
-/
import Idealize.ShloMosaic.Lib.ValueIdx
import Idealize.ShloMosaic.PureOps.Ideal.Laws

noncomputable section

namespace Cert.LibHostSums

open Idealize.ShloMosaic Idealize.ShloMosaic.ValueIdx

/-- A sum over the indices of a one-dimensional array is the sum over its coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, fun a => ix1 a, fun j => (eq_ix1 j).symm, fun _ => rfl⟩ _ _
    (fun j => congrArg f (eq_ix1 j))

/-- A sum over the indices of a three-dimensional array is the iterated sum over its coordinates. -/
theorem sum_idx3 {M : Type*} [AddCommMonoid M] {n0 n1 n2 : ℕ} (f : (⟨3, ![n0, n1, n2]⟩ : Shape).Idx → M) :
    ∑ j, f j = ∑ a : Fin n0, ∑ b : Fin n1, ∑ c : Fin n2, f (ix3 a b c) := by
  have e : (⟨3, ![n0, n1, n2]⟩ : Shape).Idx ≃ Fin n0 × Fin n1 × Fin n2 :=
    ⟨fun j => (j 0, j 1, j 2), fun p => ix3 p.1 p.2.1 p.2.2, fun j => (eq_ix3 j).symm, fun _ => rfl⟩
  calc ∑ j, f j = ∑ p : Fin n0 × Fin n1 × Fin n2, f (ix3 p.1 p.2.1 p.2.2) :=
        Fintype.sum_equiv ⟨fun j => (j 0, j 1, j 2), fun p => ix3 p.1 p.2.1 p.2.2, fun j => (eq_ix3 j).symm, fun _ => rfl⟩ _ _
          (fun j => congrArg f (eq_ix3 j))
    _ = ∑ a : Fin n0, ∑ q : Fin n1 × Fin n2, f (ix3 a q.1 q.2) :=
        Fintype.sum_prod_type (fun p : Fin n0 × Fin n1 × Fin n2 => f (ix3 p.1 p.2.1 p.2.2))
    _ = ∑ a : Fin n0, ∑ b : Fin n1, ∑ c : Fin n2, f (ix3 a b c) :=
        Finset.sum_congr rfl fun a _ => Fintype.sum_prod_type (fun q : Fin n1 × Fin n2 => f (ix3 a q.1 q.2))

/-- At the exact values the host's sum of a `[B, R, C]` array over its last two axes reads, at `b`, the initial value
    plus the sum over `n` and `m` of the operand at `(b, n, m)`. -/
theorem hostSum_axes12_apply {B R C : ℕ} (h' : (⟨3, ![B, R, C]⟩ : Shape).ReducesTo [1, 2] ⟨1, ![B]⟩)
    (x : (⟨3, ![B, R, C]⟩ : Shape).Idx → EReal) (init : EReal) (b : Fin B) :
    Ideal.hostReduceAdd h' x init (ix1 b) = init + ∑ n : Fin R, ∑ m : Fin C, x (ix3 b n m) := by
  unfold Ideal.hostReduceAdd
  refine congrArg (init + ·) ?_
  have hd : ∀ (a : Fin B) (n : Fin R) (m : Fin C), h'.drop (ix3 a n m) = ix1 b ↔ a = b := fun a n m => by
    constructor
    · intro h
      exact Fin.ext (show a.val = b.val from congrArg Fin.val (congrFun h 0))
    · rintro rfl
      exact funext fun q => Fin.ext (by match q with | ⟨0, _⟩ => rfl)
  rw [Finset.sum_filter, sum_idx3]
  have step : ∀ a : Fin B, (∑ n : Fin R, ∑ m : Fin C, if h'.drop (ix3 a n m) = ix1 b then x (ix3 a n m) else 0)
      = if a = b then ∑ n : Fin R, ∑ m : Fin C, x (ix3 a n m) else 0 := fun a => by
    by_cases hab : a = b
    · rw [if_pos hab]
      exact Finset.sum_congr rfl fun n _ => Finset.sum_congr rfl fun m _ => if_pos ((hd a n m).mpr hab)
    · rw [if_neg hab]
      refine (Finset.sum_congr rfl fun n _ => Finset.sum_congr rfl fun m _ => if_neg (fun h => hab ((hd a n m).mp h))).trans ?_
      simp
  rw [Finset.sum_congr rfl fun a _ => step a, Finset.sum_ite_eq' Finset.univ b, if_pos (Finset.mem_univ b)]

end Cert.LibHostSums

end
-- ==== Proof.RefTotals.lean ====
/-
  The reference's two totals, read off its operations one at a time.

  With `X` the reshaped input: every entry of the normalised array is its row's `attRow` (`normalised_apply`); the
  sum of its squares over the columns, then the rows, then the batch is `diagTotal X` (`diag_eq`); its batched
  product with itself has at `(b, n, m)` the inner product of rows `n` and `m` of entry `b`, whose sum over `(n, m)`
  and then over the batch is `gramTotal X` (`gram_eq`). Every sum starts from the zero constant, which adds nothing.
-/
import proofs.«102277_j395136991424_2_alg».proof.Proof.Gen.ReferenceIdeal.Read
import proofs.«102277_j395136991424_2_alg».proof.Proof.RowNorm
import proofs.«102277_j395136991424_2_alg».proof.Proof.LibHostSums

noncomputable section

namespace Cert.ReferenceIdeal.Totals

open Cert.ReferenceIdeal Cert.ReferenceIdeal.Read Cert.RowNorm Cert.LibHostSums
open Idealize.ShloMosaic Idealize.ShloMosaic.ValueIdx

variable (x0 : (⟨S128x64x64x32, .f32⟩ : BufTy).Contents (Elt Ideal))

/-- The reshaped input. -/
abbrev X : S128x64x2048.Idx → EReal := val_main_v0 (F := Ideal) x0

/-- The normalised array at entry `b`, row `n`, column `d`. -/
theorem normalised_apply (b : Fin 128) (n : Fin 64) (d : Fin 2048) :
    val_main_v5 (F := Ideal) x0 (ix3 b n d) = attRow (slab (X x0) b n) d := by
  have e : ∀ k : Fin 2048, idx_main_call0_v1 (idx_main_call0_v2 (idx_main_v4 (ix3 b n d))) k = ix3 b n k := fun k =>
    funext fun a => Fin.ext (by match a with | ⟨0, _⟩ => rfl | ⟨1, _⟩ => rfl | ⟨2, _⟩ => rfl)
  rw [val_main_v5_apply, val_main_v4_apply, val_main_v3_apply, val_main_v1_apply, val_main_call0_v2_apply,
    val_main_call0_v1_apply, val_main_v2_apply, val_main_cst_apply, val_main_call0_cst_apply]
  simp only [val_main_call0_v0_apply, e, Ideal.hostDivf_def, Ideal.maximumf_def, Ideal.hostUnary_sqrt_def, Ideal.mulf_def,
    Ideal.ofBits_def, Ideal.ofBits_zero_f32, zero_add]
  rfl

/-- The squares summed along a row. -/
theorem diag_row (b : Fin 128) (n : Fin 64) :
    val_main_v8 (F := Ideal) x0 (ix2 b n) = ∑ d, attRow (slab (X x0) b n) d * attRow (slab (X x0) b n) d := by
  have e : ∀ k : Fin 2048, idx_main_v8 (ix2 b n) k = ix3 b n k := fun k =>
    funext fun a => Fin.ext (by match a with | ⟨0, _⟩ => rfl | ⟨1, _⟩ => rfl | ⟨2, _⟩ => rfl)
  rw [val_main_v8_apply, val_main_cst_0_apply]
  simp only [e, val_main_v7_apply, normalised_apply, Ideal.mulf_def, Ideal.ofBits_def, Ideal.ofBits_zero_f32, zero_add]

/-- The squares summed over a batch entry. -/
theorem diag_entry (b : Fin 128) : val_main_v9 (F := Ideal) x0 (ix1 b) = diag (slab (X x0) b) := by
  have e : ∀ k : Fin 64, idx_main_v9 (ix1 b) k = ix2 b k := fun k =>
    funext fun a => Fin.ext (by match a with | ⟨0, _⟩ => rfl | ⟨1, _⟩ => rfl)
  rw [val_main_v9_apply, val_main_cst_1_apply]
  simp only [e, diag_row, Ideal.ofBits_def, Ideal.ofBits_zero_f32, zero_add]
  rfl

/-- The squares summed over everything. -/
theorem diag_eq : val_main_v10 (F := Ideal) x0 = fun _ => diagTotal (X x0) := by
  funext i
  rw [val_main_v10_apply, val_main_cst_2_apply, sum_idx1]
  simp only [diag_entry, Ideal.ofBits_def, Ideal.ofBits_zero_f32, zero_add]
  rfl

/-- The batched product of the normalised array with itself, at entry `b` and rows `n`, `m`. -/
theorem gram_pair (b : Fin 128) (n m : Fin 64) :
    val_main_v6 (F := Ideal) x0 (ix3 b n m) = ∑ d, attRow (slab (X x0) b n) d * attRow (slab (X x0) b m) d := by
  have el : ∀ k : Fin 2048, lidx_main_v6 (ix3 b n m) k = ix3 b n k := fun k =>
    funext fun a => Fin.ext (by match a with | ⟨0, _⟩ => rfl | ⟨1, _⟩ => rfl | ⟨2, _⟩ => rfl)
  have er : ∀ k : Fin 2048, ridx_main_v6 (ix3 b n m) k = ix3 b m k := fun k =>
    funext fun a => Fin.ext (by match a with | ⟨0, _⟩ => rfl | ⟨1, _⟩ => rfl | ⟨2, _⟩ => rfl)
  rw [val_main_v6_apply]
  simp only [el, er, normalised_apply]

/-- Its sum over all pairs of rows of a batch entry. -/
theorem gram_entry (b : Fin 128) : val_main_v12 (F := Ideal) x0 (ix1 b) = gram (slab (X x0) b) := by
  unfold val_main_v12
  generalize hy : val_main_v6 (F := Ideal) x0 = y0
  simp only [Host.reduceAdd, Ideal.hostReduceAdd_def]
  rw [hostSum_axes12_apply]
  subst hy
  simp only [gram_pair, val_main_cst_4_apply, Ideal.ofBits_def, Ideal.ofBits_zero_f32, zero_add]
  rfl

/-- Its sum over everything. -/
theorem gram_eq : val_main_v13 (F := Ideal) x0 = fun _ => gramTotal (X x0) := by
  funext i
  rw [val_main_v13_apply, val_main_cst_5_apply, sum_idx1]
  simp only [gram_entry, Ideal.ofBits_def, Ideal.ofBits_zero_f32, zero_add]
  rfl

/-- The reference's result is the loss of its two totals. -/
theorem result_eq : val_main_v15 (F := Ideal) x0 = loss (fun _ => gramTotal (X x0)) (fun _ => diagTotal (X x0)) := by
  rw [← gram_eq, ← diag_eq]
  rfl

end Cert.ReferenceIdeal.Totals

end
-- ==== Proof.Finite.lean ====
/-
  What the precondition says: every number of the input is a real. The precondition compares the absolute value of
  every entry with plus infinity and asks that all comparisons hold; an extended real whose absolute value is below
  plus infinity is neither infinity.
-/
import proofs.«102277_j395136991424_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic

instance : Subsingleton Cert.Pre_finite_inputs.S_.Idx := ⟨fun a b => funext fun d => d.elim0⟩

/-- The pattern the precondition compares against denotes plus infinity. -/
theorem ofBits_inf : Ideal.ofBits .f32 0x7F800000#32 = ⊤ := by
  simp [Ideal.ofBits, Ideal.ieee]

/-- An extended real whose absolute value is below plus infinity is a real. -/
theorem real_of_abs_lt_top (y : EReal) (h : max y (-y) < ⊤) : ∃ r : ℝ, y = r := by
  induction y using EReal.rec with
  | bot => simp at h
  | top => simp at h
  | coe r => exact ⟨r, rfl⟩

/-- Under the precondition every entry of the input is a real. -/
theorem real_of_pre [Cert.Pre_finite_inputs.Facts] (x : FVec Ideal Cert.Pre_finite_inputs.S128x64x64x32 .f32)
    (h : Cert.Pre_finite_inputs.fn (F := Ideal) x = fun _ => 1#1) (i : Cert.Pre_finite_inputs.S128x64x64x32.Idx) :
    ∃ r : ℝ, x i = r := by
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  refine real_of_abs_lt_top (x i) ?_
  by_contra hlt
  revert hc
  simp [Ideal.cmp, hlt]

end Cert.Finite

end
-- ==== Proof.lean ====
/-
  The kernel and the reference compute one number from an array of 128 batch entries, each 64 rows of 2048 numbers:
  every row is divided by `max (its Euclidean norm) eps`, and the result is
      (sum over the entries of the sum of all inner products of pairs of normalised rows) / 128
    - (sum over the entries of the sum of the squares of the normalised numbers) / 128.
  The reference forms each entry's 64 x 64 matrix of inner products and sums it. The kernel never forms it: for each
  entry it sums the normalised rows column by column, squares the 2048 column sums and adds them up, and it walks the
  batch in 8 blocks of 16 entries, keeping the two running totals in one-element buffers across the grid.

  Over the extended reals the two agree because, for real numbers, the sum over all pairs of rows of their inner
  products is the sum over the columns of the squared column sum (Proof/GramSum.lean); the regrouping of the batch
  into blocks only reorders a finite sum (Proof/BlockSums.lean). The first law needs every term real, and the
  precondition gives that: a finite input row has a real norm, and the maximum with the positive `eps` keeps the
  divisor away from zero (Proof/RowNorm.lean, Proof/Finite.lean). The division by 128 and the subtraction are the same
  operations on both sides and are never opened.

  The kernel's side: Proof/Payload.lean (what one grid point computes), Proof/Pieces.lean (what it leaves in the two
  buffers), Proof/KernelTotals.lean (the induction over the grid, the result arrays, the operations after the call).
  The reference's side: Proof/RefTotals.lean. The ideal pass rewrote nothing, so `preserves` is `True`.
-/
import proofs.«102277_j395136991424_2_alg».proof.Defs
import proofs.«102277_j395136991424_2_alg».proof.Proof.Gen.Kernel
import proofs.«102277_j395136991424_2_alg».proof.Proof.Gen.Kernel.Frame
import proofs.«102277_j395136991424_2_alg».proof.Proof.Gen.KernelIdeal
import proofs.«102277_j395136991424_2_alg».proof.Proof.Gen.KernelIdeal.Frame
import proofs.«102277_j395136991424_2_alg».proof.Proof.Gen.ReferenceIdeal
import proofs.«102277_j395136991424_2_alg».proof.Proof.Gen.ReferenceIdeal.Run
import proofs.«102277_j395136991424_2_alg».proof.Proof.Gen.ReferenceIdeal.Read
import proofs.«102277_j395136991424_2_alg».proof.Proof.Gen.Pre_finite_inputs
import proofs.«102277_j395136991424_2_alg».proof.Proof.KernelTotals
import proofs.«102277_j395136991424_2_alg».proof.Proof.RefTotals
import proofs.«102277_j395136991424_2_alg».proof.Proof.Finite
import Idealize.ShloMosaic.Adequacy
import Idealize.ShloMosaic.Init

noncomputable section

namespace Cert.Proof

open Idealize.ShloMosaic Idealize.ShloMosaic.TcCoe Idealize.SL.Sem Cert.RowNorm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the reshaped input is real at every index: a reshape only moves the entries. -/
theorem reshaped_real (x0 : (⟨Cert.ReferenceIdeal.S128x64x64x32, .f32⟩ : BufTy).Contents (Elt Ideal))
    (h : Cert.Pre_finite_inputs.fn (F := Ideal) x0 = fun _ => 1#1) (j : Cert.ReferenceIdeal.S128x64x2048.Idx) :
    ∃ r : ℝ, Cert.ReferenceIdeal.Totals.X x0 j = r := by
  rw [show Cert.ReferenceIdeal.Totals.X x0 j = x0 (Cert.ReferenceIdeal.Read.idx_main_v0 j) from
    Cert.ReferenceIdeal.Read.val_main_v0_apply x0 j]
  exact Cert.Finite.real_of_pre x0 h _

/-- Both programs end at the loss of the two totals of the reshaped input; on a finite input the kernel's form of the
    first total is the reference's. -/
theorem algebraic : Cert.algebraic_KernelIdeal_ReferenceIdeal := by
  intro m ρ m' ρ' hpre hagree
  refine ⟨fun c => loss (fun _ => simTotal (Cert.KernelIdeal.Totals.X m c)) (fun _ => diagTotal (Cert.KernelIdeal.Totals.X m c)),
    Cert.KernelIdeal.Totals.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Totals.result_eq, hagree c]
  show _ = loss (fun _ => simTotal (Cert.KernelIdeal.Totals.X m c)) (fun _ => diagTotal (Cert.KernelIdeal.Totals.X m c))
  have hX : Cert.KernelIdeal.Totals.X m c
      = Cert.ReferenceIdeal.Totals.X (m ((c.tc : Thread Cert.KernelIdeal.nD Cert.KernelIdeal.τ).loc Cert.KernelIdeal.main_arg0)) :=
    Cert.KernelIdeal.Totals.X_eq m c
  rw [hX, simTotal_eq_gramTotal _ (reshaped_real _ (hpre c))]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
